-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x4096, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelRegion.lean ====
/-
  The program of the LSTM cell step runs to the end, faults nowhere, and leaves its eleven argument arrays as they
  were launched — at any float instance `F`.

  Before the grid runs, four array operations prepare the resident operands: the four gate weight matrices are joined
  side by side into one 2048 × 4096 matrix and rounded to the narrow format, and the four bias vectors are joined into
  one row of 4096. None of them writes an argument array. The grid has 32 points; point `t` works on the 256 batch rows
  `256·t … 256·t + 255`: it is handed those rows of the hidden state, of the input and of the old cell state, the whole
  joined weight matrix and the bias row, and it fills two 256 × 1024 blocks — the new hidden state and the new cell
  state for those rows — each with ONE store covering the whole block. Nothing is carried from one point to the next,
  so the contents of each output block after a point are a function of that point's input blocks alone.
-/
import proofs.«147229_j39599598469282_2_alg».proof.Proof.Gen.Kernel.Launch
import proofs.«147229_j39599598469282_2_alg».proof.Proof.Gen.Kernel.Skeleton
import proofs.«147229_j39599598469282_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the grid finds them -/

/-- What each buffer of core `c` holds when the grid starts: the launch contents after the four preparing operations. -/
abbrev entry (c : Dev nD) (b : Ref sig .tc) : Buf (Elt F) ((c : Thread nD τ).loc b) :=
  StableHlo.after hostOps0 (fun b => m (c, b)) b

/-- The preparing operations allocate nothing. -/
theorem prep_fresh : (hostOps0 : List (HloOp τ sig (Elt F))).Forall fun op => op.fresh = ∅ := by
  simp only [List.Forall]; repeat' constructor

/-- The program is the four preparing operations followed by the grid. -/
theorem upToGrid (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prep_fresh main_chain

/-- A buffer none of the four preparing operations writes is found as launched. Each of them writes only its own
    result, and the four results are not argument arrays. -/
theorem entry_of_unwritten (c : Dev nD) (b : Ref sig .tc)
    (hb : b ≠ main_v0 ∧ b ≠ main_v1 ∧ b ≠ main_v2 ∧ b ≠ main_v3) :
    entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes,
      Finset.mem_singleton]
    exact ⟨StableHlo.devRef_ne_of_ne hb.1, StableHlo.devRef_ne_of_ne hb.2.1, StableHlo.devRef_ne_of_ne hb.2.2.1,
      StableHlo.devRef_ne_of_ne hb.2.2.2⟩))

/-! ## The blocks -/

/-- Window `w`'s block at point `t`, read off its array as the grid finds it: for the three batch-row windows rows
    `256·t … 256·t + 255`, for the weight matrix and the bias row the whole array. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input window's current staging buffer holds the window's block at every point, whether or not the block was
    transferred at that point (where it was not, the block index has not moved since it last was): for any proof data
    whose arrays are the entry contents and whose body leaves the input blocks in place. One statement per input
    window: the hidden state, -/
theorem found_h {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- the input, -/
theorem found_x {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
/-- the joined weight matrix, -/
theorem found_w {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
/-- the bias row, -/
theorem found_b {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
/-- and the old cell state. -/
theorem found_c {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)

/-! ## What the body reads and writes -/

/-- A whole 256 × 1024 block; -/
abbrev rBlk : Rect S256x1024 := Rect.unit (s := S256x1024) ![0, 0] S256x1024.size inb_S256x1024_S256x1024_0_0
/-- rows 0 … 1023 of the joined weight matrix (those the hidden state meets); -/
abbrev rWlo : Rect S2048x4096 := Rect.unit (s := S2048x4096) ![0, 0] S1024x4096.size inb_S2048x4096_S1024x4096_0_0
/-- rows 1024 … 2047 of it (those the input meets); -/
abbrev rWhi : Rect S2048x4096 := Rect.unit (s := S2048x4096) ![1024, 0] S1024x4096.size inb_S2048x4096_S1024x4096_1024_0
/-- the bias row. -/
abbrev rBias : Rect S1x4096 := Rect.unit (s := S1x4096) ![0, 0] S1x4096.size inb_S1x4096_S1x4096_0_0

/-- The new hidden state's block after the body, from the five input blocks: its one store, of the body's arithmetic
    on what the body loaded. -/
def hiddenOut (xh xx : Vec F S256x1024 .f32) (xw : Vec F S2048x4096 .bf16) (xb : Vec F S1x4096 .f32)
    (xc : Vec F S256x1024 .f32) : Vec F S256x1024 .f32 :=
  View.canon [⟨rBlk, k0_pay3 (View.ld xh rBlk) (View.ld xx rBlk) (View.ld xw rWlo) (View.ld xw rWhi) (View.ld xb rBias) (View.ld xc rBlk)⟩]

/-- The new cell state's block after the body, likewise. -/
def cellOut (xh xx : Vec F S256x1024 .f32) (xw : Vec F S2048x4096 .bf16) (xb : Vec F S1x4096 .f32)
    (xc : Vec F S256x1024 .f32) : Vec F S256x1024 .f32 :=
  View.canon [⟨rBlk, k0_pay2 (View.ld xh rBlk) (View.ld xx rBlk) (View.ld xw rWlo) (View.ld xw rWhi) (View.ld xb rBias) (View.ld xc rBlk)⟩]

/-- One store of a whole block covers the block. -/
theorem whole_covers (p : Vec F S256x1024 .f32) (y : S256x1024.Idx) :
    ∃ pc ∈ ([⟨rBlk, p⟩] : List (View.Piece (Elt F) S256x1024 .f32)), y ∈ pc.1.set :=
  View.cover_of_tiled [⟨rBlk, p⟩] S256x1024.size (by rfl) y

/-! ## The body -/

set_option maxHeartbeats 1000000 in
/-- The body, on whole staging buffers — the five inputs' at known contents, the two outputs' at anything — runs to its
    end without a fault, leaves the inputs' buffers as they were and each output's at its one store's value. (It also
    loads each output buffer once before storing into it; the loaded values are not used.) -/
theorem body_triple (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S2048x4096 .bf16) (h3 : a3.IsWhole) (a4 : Memref sig .tc .vmem S1x4096 .f32) (h4 : a4.IsWhole)
    (a5 : Memref sig .tc .vmem S256x1024 .f32) (h5 : a5.IsWhole) (a6 : Memref sig .tc .vmem S256x1024 .f32) (h6 : a6.IsWhole)
    (a7 : Memref sig .tc .vmem S256x1024 .f32) (h7 : a7.IsWhole)
    (xh xx : Vec F S256x1024 .f32) (xw : Vec F S2048x4096 .bf16) (xb : Vec F S1x4096 .f32) (xc : Vec F S256x1024 .f32)
    (K : PUnit → sProp 𝕄) :
    iprop(owns (c : Thread nD τ) a1 fullShare xh ∗ owns (c : Thread nD τ) a2 fullShare xx ∗ owns (c : Thread nD τ) a3 fullShare xw
        ∗ owns (c : Thread nD τ) a4 fullShare xb ∗ owns (c : Thread nD τ) a5 fullShare xc
        ∗ (∃ d, owns (c : Thread nD τ) a6 fullShare d) ∗ (∃ d, owns (c : Thread nD τ) a7 fullShare d)
        ∗ (iprop(owns (c : Thread nD τ) a1 fullShare xh ∗ owns (c : Thread nD τ) a2 fullShare xx ∗ owns (c : Thread nD τ) a3 fullShare xw
            ∗ owns (c : Thread nD τ) a4 fullShare xb ∗ owns (c : Thread nD τ) a5 fullShare xc
            ∗ owns (c : Thread nD τ) a6 fullShare (hiddenOut xh xx xw xb xc)
            ∗ owns (c : Thread nD τ) a7 fullShare (cellOut xh xx xw xb xc)) -∗ K ⟨⟩))
      ⊢ wp frame (wpE (defs₀ (F := F)) Variants.none c none) E (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  subst e1; subst e2; subst e3; subst e4; subst e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_covers _)
  iexists _; isplitr
  swap; · iexact H7
  ipureintro
  exact View.read_writes_eq_canon _ _ _ (whole_covers _)

/-! ## The proof data of the grid -/

/-- On core `c`: the arrays as the grid finds them; after the body at point `t` each input's buffer still at its block
    and the two outputs' at the body's stores over the point's input blocks; nothing kept between points beyond what
    the grid itself keeps; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenOut (blockAt m c 0 t) (blockAt m c 1 t) (blockAt m c 2 t) (blockAt m c 3 t) (blockAt m c 4 t)
    | ⟨6, _⟩ => cellOut (blockAt m c 0 t) (blockAt m c 1 t) (blockAt m c 2 t) (blockAt m c 3 t) (blockAt m c 4 t)
  Φ _ := Pipeline.ΦA spec0 c
  q _ := fullShare
  owed _ := 0

/-- Its arrays are the entry contents. -/
theorem arrays_eq (c : Dev nD) (w : Fin cfg0.W) : (dats m 0 c).A w = entry m c (Pipeline.arrRef spec0 w) := by
  dsimp only [dats]

/-- What the body leaves, window by window. -/
theorem after_h (c : Dev nD) (t : Fin cfg0.N) : (dats m 0 c).after 0 t = blockAt m c 0 t := by dsimp only [dats]
theorem after_x (c : Dev nD) (t : Fin cfg0.N) : (dats m 0 c).after 1 t = blockAt m c 1 t := by dsimp only [dats]
theorem after_w (c : Dev nD) (t : Fin cfg0.N) : (dats m 0 c).after 2 t = blockAt m c 2 t := by dsimp only [dats]
theorem after_b (c : Dev nD) (t : Fin cfg0.N) : (dats m 0 c).after 3 t = blockAt m c 3 t := by dsimp only [dats]
theorem after_c (c : Dev nD) (t : Fin cfg0.N) : (dats m 0 c).after 4 t = blockAt m c 4 t := by dsimp only [dats]
theorem after_hidden (c : Dev nD) (t : Fin cfg0.N) : (dats m 0 c).after 5 t
    = hiddenOut (blockAt m c 0 t) (blockAt m c 1 t) (blockAt m c 2 t) (blockAt m c 3 t) (blockAt m c 4 t) := by dsimp only [dats]
theorem after_cell (c : Dev nD) (t : Fin cfg0.N) : (dats m 0 c).after 6 t
    = cellOut (blockAt m c 0 t) (blockAt m c 1 t) (blockAt m c 2 t) (blockAt m c 3 t) (blockAt m c 4 t) := by dsimp only [dats]

/-- Each input's current buffer holds its block at every point. -/
theorem before_h (c : Dev nD) (t : Fin cfg0.N) (d) : (dats m 0 c).before 0 t d = blockAt m c 0 t :=
  found_h m (dats m 0 c) (arrays_eq m c 0) (after_h m c) t d
theorem before_x (c : Dev nD) (t : Fin cfg0.N) (d) : (dats m 0 c).before 1 t d = blockAt m c 1 t :=
  found_x m (dats m 0 c) (arrays_eq m c 1) (after_x m c) t d
theorem before_w (c : Dev nD) (t : Fin cfg0.N) (d) : (dats m 0 c).before 2 t d = blockAt m c 2 t :=
  found_w m (dats m 0 c) (arrays_eq m c 2) (after_w m c) t d
theorem before_b (c : Dev nD) (t : Fin cfg0.N) (d) : (dats m 0 c).before 3 t d = blockAt m c 3 t :=
  found_b m (dats m 0 c) (arrays_eq m c 3) (after_b m c) t d
theorem before_c (c : Dev nD) (t : Fin cfg0.N) (d) : (dats m 0 c).before 4 t d = blockAt m c 4 t :=
  found_c m (dats m 0 c) (arrays_eq m c 4) (after_c m c) t d

/-! ## The body at a point of the grid -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the inputs' buffers hold their blocks, so the body's triple applies; what the grid keeps passes
    through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h, before_x, before_w, before_b, before_c]
  rw [show (dats m 0 c).Φ t.succ = (dats m 0 c).Φ t.castSucc from rfl,
    show (dats m 0 c).owesAt () t.succ = (dats m 0 c).owesAt () t.castSucc from rfl,
    after_h, after_x, after_w, after_b, after_c, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The same at every point, in the form the grid's run asks for. -/
theorem body_everywhere (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates without a fault; at the
    end each window's array holds what the grid's write-backs left of the proof data, and every other unscoped buffer
    what it held when the grid started. -/
theorem run : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_everywhere m c).loose) (hshare := fun c => (dats m 0 c).share_full fun _ => rfl)
    (howed := fun _ _ => rfl) (V := entry m) (hmain := upToGrid m Variants.none) (hA := arrays_eq m) (hΦ := fun _ _ => rfl)

/-- In any final state of the run the eleven argument arrays are as launched: the hidden state, the input and the old
    cell state are input windows' arrays (an input window's array is never written back), the eight weight and bias
    arrays are read by the preparing operations only; and no preparing operation writes any of the eleven. -/
theorem args_kept (r : PUnit × MemSt nD τ sig (Elt F)) (h : Pipeline.FramePost cfgs (dats m) 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats m 0 c).arrAt_in 1 rfl _).trans ((arrays_eq m c 1).trans (entry_of_unwritten m c main_arg0 (by decide)))),
   ((h c).1 0).trans (((dats m 0 c).arrAt_in 0 rfl _).trans ((arrays_eq m c 0).trans (entry_of_unwritten m c main_arg1 (by decide)))),
   ((h c).1 4).trans (((dats m 0 c).arrAt_in 4 rfl _).trans ((arrays_eq m c 4).trans (entry_of_unwritten m c main_arg2 (by decide)))),
   ((h c).2 main_arg3 (Pipeline.mem_restRefs_of main_arg3 (by decide) (by decide))).trans (entry_of_unwritten m c main_arg3 (by decide)),
   ((h c).2 main_arg4 (Pipeline.mem_restRefs_of main_arg4 (by decide) (by decide))).trans (entry_of_unwritten m c main_arg4 (by decide)),
   ((h c).2 main_arg5 (Pipeline.mem_restRefs_of main_arg5 (by decide) (by decide))).trans (entry_of_unwritten m c main_arg5 (by decide)),
   ((h c).2 main_arg6 (Pipeline.mem_restRefs_of main_arg6 (by decide) (by decide))).trans (entry_of_unwritten m c main_arg6 (by decide)),
   ((h c).2 main_arg7 (Pipeline.mem_restRefs_of main_arg7 (by decide) (by decide))).trans (entry_of_unwritten m c main_arg7 (by decide)),
   ((h c).2 main_arg8 (Pipeline.mem_restRefs_of main_arg8 (by decide) (by decide))).trans (entry_of_unwritten m c main_arg8 (by decide)),
   ((h c).2 main_arg9 (Pipeline.mem_restRefs_of main_arg9 (by decide) (by decide))).trans (entry_of_unwritten m c main_arg9 (by decide)),
   ((h c).2 main_arg10 (Pipeline.mem_restRefs_of main_arg10 (by decide) (by decide))).trans (entry_of_unwritten m c main_arg10 (by decide))⟩

/-- So the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run m ρ)

end Cert.Kernel.Region

end
-- ==== Proof.KernelIdealRegion.lean ====
/-
  The program of the LSTM cell step runs to the end, faults nowhere, and leaves its eleven argument arrays as they
  were launched — at any float instance `F`.

  Before the grid runs, four array operations prepare the resident operands: the four gate weight matrices are joined
  side by side into one 2048 × 4096 matrix and rounded to the narrow format, and the four bias vectors are joined into
  one row of 4096. None of them writes an argument array. The grid has 32 points; point `t` works on the 256 batch rows
  `256·t … 256·t + 255`: it is handed those rows of the hidden state, of the input and of the old cell state, the whole
  joined weight matrix and the bias row, and it fills two 256 × 1024 blocks — the new hidden state and the new cell
  state for those rows — each with ONE store covering the whole block. Nothing is carried from one point to the next,
  so the contents of each output block after a point are a function of that point's input blocks alone.
-/
import proofs.«147229_j39599598469282_2_alg».proof.Proof.Gen.KernelIdeal.Launch
import proofs.«147229_j39599598469282_2_alg».proof.Proof.Gen.KernelIdeal.Skeleton
import proofs.«147229_j39599598469282_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the grid finds them -/

/-- What each buffer of core `c` holds when the grid starts: the launch contents after the four preparing operations. -/
abbrev entry (c : Dev nD) (b : Ref sig .tc) : Buf (Elt F) ((c : Thread nD τ).loc b) :=
  StableHlo.after hostOps0 (fun b => m (c, b)) b

/-- The preparing operations allocate nothing. -/
theorem prep_fresh : (hostOps0 : List (HloOp τ sig (Elt F))).Forall fun op => op.fresh = ∅ := by
  simp only [List.Forall]; repeat' constructor

/-- The program is the four preparing operations followed by the grid. -/
theorem upToGrid (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prep_fresh main_chain

/-- A buffer none of the four preparing operations writes is found as launched. Each of them writes only its own
    result, and the four results are not argument arrays. -/
theorem entry_of_unwritten (c : Dev nD) (b : Ref sig .tc)
    (hb : b ≠ main_v0 ∧ b ≠ main_v1 ∧ b ≠ main_v2 ∧ b ≠ main_v3) :
    entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes,
      Finset.mem_singleton]
    exact ⟨StableHlo.devRef_ne_of_ne hb.1, StableHlo.devRef_ne_of_ne hb.2.1, StableHlo.devRef_ne_of_ne hb.2.2.1,
      StableHlo.devRef_ne_of_ne hb.2.2.2⟩))

/-! ## The blocks -/

/-- Window `w`'s block at point `t`, read off its array as the grid finds it: for the three batch-row windows rows
    `256·t … 256·t + 255`, for the weight matrix and the bias row the whole array. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input window's current staging buffer holds the window's block at every point, whether or not the block was
    transferred at that point (where it was not, the block index has not moved since it last was): for any proof data
    whose arrays are the entry contents and whose body leaves the input blocks in place. One statement per input
    window: the hidden state, -/
theorem found_h {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- the input, -/
theorem found_x {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
/-- the joined weight matrix, -/
theorem found_w {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
/-- the bias row, -/
theorem found_b {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
/-- and the old cell state. -/
theorem found_c {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)

/-! ## What the body reads and writes -/

/-- A whole 256 × 1024 block; -/
abbrev rBlk : Rect S256x1024 := Rect.unit (s := S256x1024) ![0, 0] S256x1024.size inb_S256x1024_S256x1024_0_0
/-- rows 0 … 1023 of the joined weight matrix (those the hidden state meets); -/
abbrev rWlo : Rect S2048x4096 := Rect.unit (s := S2048x4096) ![0, 0] S1024x4096.size inb_S2048x4096_S1024x4096_0_0
/-- rows 1024 … 2047 of it (those the input meets); -/
abbrev rWhi : Rect S2048x4096 := Rect.unit (s := S2048x4096) ![1024, 0] S1024x4096.size inb_S2048x4096_S1024x4096_1024_0
/-- the bias row. -/
abbrev rBias : Rect S1x4096 := Rect.unit (s := S1x4096) ![0, 0] S1x4096.size inb_S1x4096_S1x4096_0_0

/-- The new hidden state's block after the body, from the five input blocks: its one store, of the body's arithmetic
    on what the body loaded. -/
def hiddenOut (xh xx : Vec F S256x1024 .f32) (xw : Vec F S2048x4096 .bf16) (xb : Vec F S1x4096 .f32)
    (xc : Vec F S256x1024 .f32) : Vec F S256x1024 .f32 :=
  View.canon [⟨rBlk, k0_pay3 (View.ld xh rBlk) (View.ld xx rBlk) (View.ld xw rWlo) (View.ld xw rWhi) (View.ld xb rBias) (View.ld xc rBlk)⟩]

/-- The new cell state's block after the body, likewise. -/
def cellOut (xh xx : Vec F S256x1024 .f32) (xw : Vec F S2048x4096 .bf16) (xb : Vec F S1x4096 .f32)
    (xc : Vec F S256x1024 .f32) : Vec F S256x1024 .f32 :=
  View.canon [⟨rBlk, k0_pay2 (View.ld xh rBlk) (View.ld xx rBlk) (View.ld xw rWlo) (View.ld xw rWhi) (View.ld xb rBias) (View.ld xc rBlk)⟩]

/-- One store of a whole block covers the block. -/
theorem whole_covers (p : Vec F S256x1024 .f32) (y : S256x1024.Idx) :
    ∃ pc ∈ ([⟨rBlk, p⟩] : List (View.Piece (Elt F) S256x1024 .f32)), y ∈ pc.1.set :=
  View.cover_of_tiled [⟨rBlk, p⟩] S256x1024.size (by rfl) y

/-! ## The body -/

set_option maxHeartbeats 1000000 in
/-- The body, on whole staging buffers — the five inputs' at known contents, the two outputs' at anything — runs to its
    end without a fault, leaves the inputs' buffers as they were and each output's at its one store's value. (It also
    loads each output buffer once before storing into it; the loaded values are not used.) -/
theorem body_triple (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S2048x4096 .bf16) (h3 : a3.IsWhole) (a4 : Memref sig .tc .vmem S1x4096 .f32) (h4 : a4.IsWhole)
    (a5 : Memref sig .tc .vmem S256x1024 .f32) (h5 : a5.IsWhole) (a6 : Memref sig .tc .vmem S256x1024 .f32) (h6 : a6.IsWhole)
    (a7 : Memref sig .tc .vmem S256x1024 .f32) (h7 : a7.IsWhole)
    (xh xx : Vec F S256x1024 .f32) (xw : Vec F S2048x4096 .bf16) (xb : Vec F S1x4096 .f32) (xc : Vec F S256x1024 .f32)
    (K : PUnit → sProp 𝕄) :
    iprop(owns (c : Thread nD τ) a1 fullShare xh ∗ owns (c : Thread nD τ) a2 fullShare xx ∗ owns (c : Thread nD τ) a3 fullShare xw
        ∗ owns (c : Thread nD τ) a4 fullShare xb ∗ owns (c : Thread nD τ) a5 fullShare xc
        ∗ (∃ d, owns (c : Thread nD τ) a6 fullShare d) ∗ (∃ d, owns (c : Thread nD τ) a7 fullShare d)
        ∗ (iprop(owns (c : Thread nD τ) a1 fullShare xh ∗ owns (c : Thread nD τ) a2 fullShare xx ∗ owns (c : Thread nD τ) a3 fullShare xw
            ∗ owns (c : Thread nD τ) a4 fullShare xb ∗ owns (c : Thread nD τ) a5 fullShare xc
            ∗ owns (c : Thread nD τ) a6 fullShare (hiddenOut xh xx xw xb xc)
            ∗ owns (c : Thread nD τ) a7 fullShare (cellOut xh xx xw xb xc)) -∗ K ⟨⟩))
      ⊢ wp frame (wpE (defs₀ (F := F)) Variants.none c none) E (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  subst e1; subst e2; subst e3; subst e4; subst e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_covers _)
  iexists _; isplitr
  swap; · iexact H7
  ipureintro
  exact View.read_writes_eq_canon _ _ _ (whole_covers _)

/-! ## The proof data of the grid -/

/-- On core `c`: the arrays as the grid finds them; after the body at point `t` each input's buffer still at its block
    and the two outputs' at the body's stores over the point's input blocks; nothing kept between points beyond what
    the grid itself keeps; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenOut (blockAt m c 0 t) (blockAt m c 1 t) (blockAt m c 2 t) (blockAt m c 3 t) (blockAt m c 4 t)
    | ⟨6, _⟩ => cellOut (blockAt m c 0 t) (blockAt m c 1 t) (blockAt m c 2 t) (blockAt m c 3 t) (blockAt m c 4 t)
  Φ _ := Pipeline.ΦA spec0 c
  q _ := fullShare
  owed _ := 0

/-- Its arrays are the entry contents. -/
theorem arrays_eq (c : Dev nD) (w : Fin cfg0.W) : (dats m 0 c).A w = entry m c (Pipeline.arrRef spec0 w) := by
  dsimp only [dats]

/-- What the body leaves, window by window. -/
theorem after_h (c : Dev nD) (t : Fin cfg0.N) : (dats m 0 c).after 0 t = blockAt m c 0 t := by dsimp only [dats]
theorem after_x (c : Dev nD) (t : Fin cfg0.N) : (dats m 0 c).after 1 t = blockAt m c 1 t := by dsimp only [dats]
theorem after_w (c : Dev nD) (t : Fin cfg0.N) : (dats m 0 c).after 2 t = blockAt m c 2 t := by dsimp only [dats]
theorem after_b (c : Dev nD) (t : Fin cfg0.N) : (dats m 0 c).after 3 t = blockAt m c 3 t := by dsimp only [dats]
theorem after_c (c : Dev nD) (t : Fin cfg0.N) : (dats m 0 c).after 4 t = blockAt m c 4 t := by dsimp only [dats]
theorem after_hidden (c : Dev nD) (t : Fin cfg0.N) : (dats m 0 c).after 5 t
    = hiddenOut (blockAt m c 0 t) (blockAt m c 1 t) (blockAt m c 2 t) (blockAt m c 3 t) (blockAt m c 4 t) := by dsimp only [dats]
theorem after_cell (c : Dev nD) (t : Fin cfg0.N) : (dats m 0 c).after 6 t
    = cellOut (blockAt m c 0 t) (blockAt m c 1 t) (blockAt m c 2 t) (blockAt m c 3 t) (blockAt m c 4 t) := by dsimp only [dats]

/-- Each input's current buffer holds its block at every point. -/
theorem before_h (c : Dev nD) (t : Fin cfg0.N) (d) : (dats m 0 c).before 0 t d = blockAt m c 0 t :=
  found_h m (dats m 0 c) (arrays_eq m c 0) (after_h m c) t d
theorem before_x (c : Dev nD) (t : Fin cfg0.N) (d) : (dats m 0 c).before 1 t d = blockAt m c 1 t :=
  found_x m (dats m 0 c) (arrays_eq m c 1) (after_x m c) t d
theorem before_w (c : Dev nD) (t : Fin cfg0.N) (d) : (dats m 0 c).before 2 t d = blockAt m c 2 t :=
  found_w m (dats m 0 c) (arrays_eq m c 2) (after_w m c) t d
theorem before_b (c : Dev nD) (t : Fin cfg0.N) (d) : (dats m 0 c).before 3 t d = blockAt m c 3 t :=
  found_b m (dats m 0 c) (arrays_eq m c 3) (after_b m c) t d
theorem before_c (c : Dev nD) (t : Fin cfg0.N) (d) : (dats m 0 c).before 4 t d = blockAt m c 4 t :=
  found_c m (dats m 0 c) (arrays_eq m c 4) (after_c m c) t d

/-! ## The body at a point of the grid -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the inputs' buffers hold their blocks, so the body's triple applies; what the grid keeps passes
    through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h, before_x, before_w, before_b, before_c]
  rw [show (dats m 0 c).Φ t.succ = (dats m 0 c).Φ t.castSucc from rfl,
    show (dats m 0 c).owesAt () t.succ = (dats m 0 c).owesAt () t.castSucc from rfl,
    after_h, after_x, after_w, after_b, after_c, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The same at every point, in the form the grid's run asks for. -/
theorem body_everywhere (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates without a fault; at the
    end each window's array holds what the grid's write-backs left of the proof data, and every other unscoped buffer
    what it held when the grid started. -/
theorem run : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_everywhere m c).loose) (hshare := fun c => (dats m 0 c).share_full fun _ => rfl)
    (howed := fun _ _ => rfl) (V := entry m) (hmain := upToGrid m Variants.none) (hA := arrays_eq m) (hΦ := fun _ _ => rfl)

/-- In any final state of the run the eleven argument arrays are as launched: the hidden state, the input and the old
    cell state are input windows' arrays (an input window's array is never written back), the eight weight and bias
    arrays are read by the preparing operations only; and no preparing operation writes any of the eleven. -/
theorem args_kept (r : PUnit × MemSt nD τ sig (Elt F)) (h : Pipeline.FramePost cfgs (dats m) 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats m 0 c).arrAt_in 1 rfl _).trans ((arrays_eq m c 1).trans (entry_of_unwritten m c main_arg0 (by decide)))),
   ((h c).1 0).trans (((dats m 0 c).arrAt_in 0 rfl _).trans ((arrays_eq m c 0).trans (entry_of_unwritten m c main_arg1 (by decide)))),
   ((h c).1 4).trans (((dats m 0 c).arrAt_in 4 rfl _).trans ((arrays_eq m c 4).trans (entry_of_unwritten m c main_arg2 (by decide)))),
   ((h c).2 main_arg3 (Pipeline.mem_restRefs_of main_arg3 (by decide) (by decide))).trans (entry_of_unwritten m c main_arg3 (by decide)),
   ((h c).2 main_arg4 (Pipeline.mem_restRefs_of main_arg4 (by decide) (by decide))).trans (entry_of_unwritten m c main_arg4 (by decide)),
   ((h c).2 main_arg5 (Pipeline.mem_restRefs_of main_arg5 (by decide) (by decide))).trans (entry_of_unwritten m c main_arg5 (by decide)),
   ((h c).2 main_arg6 (Pipeline.mem_restRefs_of main_arg6 (by decide) (by decide))).trans (entry_of_unwritten m c main_arg6 (by decide)),
   ((h c).2 main_arg7 (Pipeline.mem_restRefs_of main_arg7 (by decide) (by decide))).trans (entry_of_unwritten m c main_arg7 (by decide)),
   ((h c).2 main_arg8 (Pipeline.mem_restRefs_of main_arg8 (by decide) (by decide))).trans (entry_of_unwritten m c main_arg8 (by decide)),
   ((h c).2 main_arg9 (Pipeline.mem_restRefs_of main_arg9 (by decide) (by decide))).trans (entry_of_unwritten m c main_arg9 (by decide)),
   ((h c).2 main_arg10 (Pipeline.mem_restRefs_of main_arg10 (by decide) (by decide))).trans (entry_of_unwritten m c main_arg10 (by decide))⟩

/-- So the program runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run m ρ)

end Cert.KernelIdeal.Region

end
-- ==== Proof.LstmSpec.lean ====
/-
  The mathematics of one LSTM cell step, over the extended reals, with no program in sight.

  For a batch row with hidden state `hr` and input `xr` (1024 entries each), the pre-activation of one gate column is
  the inner product of the joined vector (hidden state first, input second) with that column of the joined weight
  matrix, plus the column's bias. Splitting the 2048 rows of the weight matrix into the first 1024 (met by the
  hidden state) and the last 1024 (met by the input) writes that inner product as two sums of 1024 terms: `pre`.
  The four gate columns of lane `q` are `q`, `1024 + q`, `2048 + q`, `3072 + q` (forget, input, candidate, output).
  The new cell state is `σ(f) · c + σ(i) · tanh(g)` and the new hidden state `σ(o) · tanh(c')`, with `σ` the logistic
  function `1 / (1 + e^(-x))` and `tanh` the hyperbolic tangent, both extended to the infinities by their limits.
-/
import Idealize.ShloMosaic.PureOps.Ideal
import Idealize.ShloMosaic.Lib.ValueIdx

noncomputable section

open scoped BigOperators

namespace Cert.LstmSpec

open Idealize.ShloMosaic Idealize.ShloMosaic.ValueIdx

/-- One gate column's pre-activation for one batch row: the hidden state against the first 1024 weight rows of the
    column, the input against the last 1024, and the bias. -/
def pre (hr xr wlo whi : Fin 1024 → EReal) (bj : EReal) : EReal :=
  ((∑ k : Fin 1024, hr k * wlo k) + (∑ k : Fin 1024, xr k * whi k)) + bj

/-- The new cell state from the forget, input and candidate pre-activations and the old cell state. -/
def cNew (f i g cprev : EReal) : EReal :=
  Ideal.logistic f * cprev + Ideal.logistic i * Ideal.tanh g

/-- The new hidden state from the output pre-activation and the new cell state. -/
def hNew (o cn : EReal) : EReal :=
  Ideal.logistic o * Ideal.tanh cn

/-- Row `k` of the weight rows met by the hidden state: row `k` of the joined matrix. -/
def lo (k : Fin 1024) : Fin 2048 := ⟨k.val, by omega⟩
/-- Row `k` of the weight rows met by the input: row `1024 + k` of the joined matrix. -/
def hi (k : Fin 1024) : Fin 2048 := ⟨1024 + k.val, by omega⟩

/-- The four gate columns of lane `q`. -/
def colF (q : Fin 1024) : Fin 4096 := ⟨q.val, by omega⟩
def colI (q : Fin 1024) : Fin 4096 := ⟨1024 + q.val, by omega⟩
def colG (q : Fin 1024) : Fin 4096 := ⟨2048 + q.val, by omega⟩
def colO (q : Fin 1024) : Fin 4096 := ⟨3072 + q.val, by omega⟩

/-- The pre-activation of gate column `j` for batch row `r`, from the whole arrays: hidden state `h`, input `x`, the
    joined weight matrix `W` (2048 × 4096) and the joined bias `b` (4096). -/
def gate (h x : (⟨2, ![8192, 1024]⟩ : Shape).Idx → EReal) (W : (⟨2, ![2048, 4096]⟩ : Shape).Idx → EReal)
    (b : (⟨1, ![4096]⟩ : Shape).Idx → EReal) (r : Fin 8192) (j : Fin 4096) : EReal :=
  pre (fun k => h (ix2 r k)) (fun k => x (ix2 r k)) (fun k => W (ix2 (lo k) j)) (fun k => W (ix2 (hi k) j)) (b (ix1 j))

/-- The new cell state at batch row `r`, lane `q`. -/
def cellState (h x c : (⟨2, ![8192, 1024]⟩ : Shape).Idx → EReal) (W : (⟨2, ![2048, 4096]⟩ : Shape).Idx → EReal)
    (b : (⟨1, ![4096]⟩ : Shape).Idx → EReal) (r : Fin 8192) (q : Fin 1024) : EReal :=
  cNew (gate h x W b r (colF q)) (gate h x W b r (colI q)) (gate h x W b r (colG q)) (c (ix2 r q))

/-- The new hidden state at batch row `r`, lane `q`. -/
def hiddenState (h x c : (⟨2, ![8192, 1024]⟩ : Shape).Idx → EReal) (W : (⟨2, ![2048, 4096]⟩ : Shape).Idx → EReal)
    (b : (⟨1, ![4096]⟩ : Shape).Idx → EReal) (r : Fin 8192) (q : Fin 1024) : EReal :=
  hNew (gate h x W b r (colO q)) (cellState h x c W b r q)

end Cert.LstmSpec

end
-- ==== Proof.PayValue.lean ====
/-
  The kernel body's arithmetic read at one element, over the extended reals.

  The body first forms a 256 × 4096 block of pre-activations: the hidden-state block (256 × 1024) times the first 1024
  weight rows, plus the input block times the last 1024 weight rows, plus the bias row repeated down the 256 rows. Over
  the extended reals a change of float format is the identity, and a matrix product accumulated into zero is, at row
  `p` and column `j`, the sum over `k` of the left factor at `(p, k)` times the right factor at `(k, j)`. So the
  block at `(p, j)` is `pre` of row `p` of the two data blocks, column `j` of the two weight halves, and entry `j`
  of the bias (`pay1_at`).

  The new cell block cuts three panels of 1024 columns out of that block, starting at columns 0, 1024 and 2048; at
  `(p, q)` they read the block at columns `q`, `1024 + q` and `2048 + q`, the forget, input and candidate columns of
  lane `q`. Hence the cell block at `(p, q)` is `cNew` of those three and the old cell state (`pay2_at`). The new
  hidden block cuts the panel starting at column 3072, the output column of lane `q`, and is `hNew` of it and the new
  cell state (`pay3_at`).
-/
import proofs.«147229_j39599598469282_2_alg».proof.Proof.LstmSpec
import proofs.«147229_j39599598469282_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
open scoped BigOperators
open Idealize.ShloMosaic Idealize.ShloMosaic.ValueIdx

namespace Cert.KernelIdeal.PayValue
open Cert.KernelIdeal Cert.KernelIdeal.Gen Cert.LstmSpec

/-- The left factor's index for output `i` at contraction position `q` keeps the output's row. -/
theorem lhs_row (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

/-- The left factor's column is the contraction position. -/
theorem lhs_col (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q

/-- The right factor's row is the contraction position. -/
theorem rhs_row (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q

/-- The right factor's index keeps the output's column. -/
theorem rhs_col (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A 256 × 1024 by 1024 × 4096 product accumulated into zero, at `(p, j)`: the inner product of row `p` of the left
    factor with column `j` of the right, as a sum over the 1024 contraction positions. -/
theorem matmul_zero_at (a : FVec Ideal S256x1024 .bf16) (w : FVec Ideal S1024x4096 .bf16) (p : Fin 256) (j : Fin 4096) :
    matmul dot_S256x1024_S1024x4096_S256x4096_1_0_0_1_n_n none a w (constant (F := Ideal) S256x4096 .f32 0x00000000#32) (ix2 p j)
      = ∑ k : Fin 1024, a (ix2 p k) * w (ix2 k j) := by
  refine (Ideal.matmul_constant_zero_apply dot_S256x1024_S1024x4096_S256x4096_1_0_0_1_n_n none a w (ix2 p j)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p j) ((ValueIdx.contrEquiv1 dot_S256x1024_S1024x4096_S256x4096_1_0_0_1_n_n 1024 rfl rfl).symm k) = ix2 p k := funext fun x => Fin.ext (by
    match x with
    | ⟨0, _⟩ => exact lhs_row _ _
    | ⟨1, _⟩ => exact (lhs_col _ _).trans hk)
  have er : dot_S256x1024_S1024x4096_S256x4096_1_0_0_1_n_n.rhsIdx (ix2 p j) ((ValueIdx.contrEquiv1 dot_S256x1024_S1024x4096_S256x4096_1_0_0_1_n_n 1024 rfl rfl).symm k) = ix2 k j := funext fun x => Fin.ext (by
    match x with
    | ⟨0, _⟩ => exact (rhs_row _ _).trans hk
    | ⟨1, _⟩ => exact rhs_col _ _)
  rw [el, er]

/-- The pre-activation block at `(p, j)`: both format changes and all three shape casts are identities, each product
    into zero is an inner product, and the broadcast bias row reads its entry `j` on every row. -/
theorem pay1_at (v0 v2 : Vec Ideal S256x1024 .f32) (v4 v6 : Vec Ideal S1024x4096 .bf16) (v11 : Vec Ideal S1x4096 .f32)
    (p : Fin 256) (j : Fin 4096) :
    k0_pay1 (F := Ideal) v0 v2 v4 v6 v11 (ix2 p j)
      = pre (fun k => v0 (ix2 p k)) (fun k => v2 (ix2 p k)) (fun k => v4 (ix2 k j)) (fun k => v6 (ix2 k j)) (v11 (ix2 (0 : Fin 1) j)) := by
  unfold k0_pay1 pre
  refine (addf_apply _ _ (ix2 p j)).trans ?_
  refine congrArg₂ (· + ·) ((addf_apply _ _ (ix2 p j)).trans (congrArg₂ (· + ·) ?_ ?_)) ?_
  · rw [shapeCast_self]
    exact matmul_zero_at _ v4 p j
  · rw [shapeCast_self]
    exact matmul_zero_at _ v6 p j
  · rw [shapeCast_self]
    exact broadcastTo_1b_ab_apply v11 _ p j

/-- The new cell block at `(p, q)`: the panels starting at columns 0, 1024, 2048 read the pre-activation block at the
    forget, input and candidate columns of lane `q`. -/
theorem pay2_at (v0 v2 : Vec Ideal S256x1024 .f32) (v4 v6 : Vec Ideal S1024x4096 .bf16) (v11 : Vec Ideal S1x4096 .f32)
    (v23 : Vec Ideal S256x1024 .f32) (p : Fin 256) (q : Fin 1024) :
    k0_pay2 (F := Ideal) v0 v2 v4 v6 v11 v23 (ix2 p q)
      = cNew (k0_pay1 (F := Ideal) v0 v2 v4 v6 v11 (ix2 p (colF q))) (k0_pay1 (F := Ideal) v0 v2 v4 v6 v11 (ix2 p (colI q)))
          (k0_pay1 (F := Ideal) v0 v2 v4 v6 v11 (ix2 p (colG q))) (v23 (ix2 p q)) := by
  unfold k0_pay2 cNew
  generalize k0_pay1 (F := Ideal) v0 v2 v4 v6 v11 = y
  have hF : extractStridedSlice S256x1024 ![0, 0] y slices_S256x4096_o0_0_S256x1024 (ix2 p q) = y (ix2 p (colF q)) :=
    slice2_axis1_apply 0 y slices_S256x4096_o0_0_S256x1024 p q (colF q) (by show q.val = 0 + q.val; omega)
  have hI : extractStridedSlice S256x1024 ![0, 1024] y slices_S256x4096_o0_1024_S256x1024 (ix2 p q) = y (ix2 p (colI q)) :=
    slice2_axis1_apply 1024 y slices_S256x4096_o0_1024_S256x1024 p q (colI q) (by show 1024 + q.val = 1024 + q.val; omega)
  have hG : extractStridedSlice S256x1024 ![0, 2048] y slices_S256x4096_o0_2048_S256x1024 (ix2 p q) = y (ix2 p (colG q)) :=
    slice2_axis1_apply 2048 y slices_S256x4096_o0_2048_S256x1024 p q (colG q) (by show 2048 + q.val = 2048 + q.val; omega)
  refine (addf_apply _ _ (ix2 p q)).trans ?_
  refine congrArg₂ (· + ·) ((mulf_apply _ _ (ix2 p q)).trans ?_) ((mulf_apply _ _ (ix2 p q)).trans ?_)
  · exact congrArg (fun t => Ideal.logistic t * v23 (ix2 p q)) hF
  · exact congrArg₂ (fun s t => Ideal.logistic s * Ideal.tanh t) hI hG

/-- The new hidden block at `(p, q)`: the panel starting at column 3072 reads the output column of lane `q`. -/
theorem pay3_at (v0 v2 : Vec Ideal S256x1024 .f32) (v4 v6 : Vec Ideal S1024x4096 .bf16) (v11 : Vec Ideal S1x4096 .f32)
    (v23 : Vec Ideal S256x1024 .f32) (p : Fin 256) (q : Fin 1024) :
    k0_pay3 (F := Ideal) v0 v2 v4 v6 v11 v23 (ix2 p q)
      = hNew (k0_pay1 (F := Ideal) v0 v2 v4 v6 v11 (ix2 p (colO q))) (k0_pay2 (F := Ideal) v0 v2 v4 v6 v11 v23 (ix2 p q)) := by
  unfold k0_pay3 hNew
  generalize k0_pay1 (F := Ideal) v0 v2 v4 v6 v11 = y
  generalize k0_pay2 (F := Ideal) v0 v2 v4 v6 v11 v23 = z
  have hO : extractStridedSlice S256x1024 ![0, 3072] y slices_S256x4096_o0_3072_S256x1024 (ix2 p q) = y (ix2 p (colO q)) :=
    slice2_axis1_apply 3072 y slices_S256x4096_o0_3072_S256x1024 p q (colO q) (by show 3072 + q.val = 3072 + q.val; omega)
  refine (mulf_apply _ _ (ix2 p q)).trans ?_
  exact congrArg (fun t => Ideal.logistic t * Ideal.tanh (z (ix2 p q))) hO

end Cert.KernelIdeal.PayValue

end
-- ==== Proof.KernelValue.lean ====
/-
  What the two result arrays of the LSTM cell step hold after the program has run, over the extended reals: at batch
  row `r` and lane `q` the new hidden state and the new cell state of the specification, computed from the hidden
  state, the input, the old cell state, the four weight matrices joined side by side and the four bias vectors joined
  end to end.

  Point `t` of the grid is handed rows `256·t … 256·t + 255` of the three batch arrays, the whole joined weight matrix
  (rounded to the narrow format, which over the extended reals changes nothing) and the bias row, and writes back rows
  `256·t … 256·t + 255` of the two results. Row `p` of its blocks is batch row `256·t + p`; the body's arithmetic at
  `(p, q)` is the specification's at `(256·t + p, q)`. The 32 blocks of 256 rows tile the 8192 rows, so each result
  array ends equal to the specification everywhere.
-/
import proofs.«147229_j39599598469282_2_alg».proof.Proof.LstmSpec
import proofs.«147229_j39599598469282_2_alg».proof.Proof.PayValue
import proofs.«147229_j39599598469282_2_alg».proof.Proof.KernelIdealRegion
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.CellValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region Cert.KernelIdeal.PayValue Cert.LstmSpec

/-! ## One point of the grid, over plain blocks -/

theorem zeros : (![0, 0] : Fin 2 → Nat) = fun _ => 0 := funext fun a => by fin_cases a <;> rfl

/-- Row `k` of the weight rows the hidden state meets is row `k` of the joined matrix; -/
theorem wlo_idx (k : Fin 1024) (j : Fin 4096) : rWlo.idx (ix2 k j) = ix2 (lo k) j := by
  funext a; apply Fin.ext
  match a with
  | ⟨0, _⟩ => show 0 + 1 * k.val = k.val; omega
  | ⟨1, _⟩ => show 0 + 1 * j.val = j.val; omega
/-- row `k` of those the input meets is row `1024 + k`. -/
theorem whi_idx (k : Fin 1024) (j : Fin 4096) : rWhi.idx (ix2 k j) = ix2 (hi k) j := by
  funext a; apply Fin.ext
  match a with
  | ⟨0, _⟩ => show 1024 + 1 * k.val = 1024 + k.val; omega
  | ⟨1, _⟩ => show 0 + 1 * j.val = j.val; omega

/-- If row `p` of the hidden-state and input blocks is batch row `r` of the arrays `h` and `x`, the weight block is the
    joined matrix `W`, the bias block the joined bias `b`, and the old cell block at `(p, q)` is `cc` at `(r, q)`, then
    what the body stores at `(p, q)` is the specification at `(r, q)`: for the new hidden state and for the new cell state. -/
theorem point_spec (xh xx : Vec Ideal S256x1024 .f32) (xw : Vec Ideal S2048x4096 .bf16) (xb : Vec Ideal S1x4096 .f32)
    (xc : Vec Ideal S256x1024 .f32)
    (h x cc : (⟨2, ![8192, 1024]⟩ : Shape).Idx → EReal) (W : (⟨2, ![2048, 4096]⟩ : Shape).Idx → EReal)
    (b : (⟨1, ![4096]⟩ : Shape).Idx → EReal) (r : Fin 8192) (p : Fin 256) (q : Fin 1024)
    (eh : ∀ k : Fin 1024, xh (ix2 p k) = h (ix2 r k)) (ex : ∀ k : Fin 1024, xx (ix2 p k) = x (ix2 r k))
    (ec : xc (ix2 p q) = cc (ix2 r q)) (ew : ∀ (k : Fin 2048) (j : Fin 4096), xw (ix2 k j) = W (ix2 k j))
    (eb : ∀ j : Fin 4096, xb (ix2 (0 : Fin 1) j) = b (ix1 j)) :
    hiddenOut xh xx xw xb xc (ix2 p q) = hiddenState h x cc W b r q
      ∧ cellOut xh xx xw xb xc (ix2 p q) = cellState h x cc W b r q := by
  have lh : View.ld xh rBlk = xh := View.ld_unit_zero zeros _ xh
  have lx : View.ld xx rBlk = xx := View.ld_unit_zero zeros _ xx
  have lc : View.ld xc rBlk = xc := View.ld_unit_zero zeros _ xc
  have lb : View.ld xb rBias = xb := View.ld_unit_zero zeros _ xb
  have g : ∀ j : Fin 4096, k0_pay1 (F := Ideal) xh xx (View.ld xw rWlo) (View.ld xw rWhi) xb (ix2 p j) = gate h x W b r j := by
    intro j
    refine (pay1_at xh xx (View.ld xw rWlo) (View.ld xw rWhi) xb p j).trans ?_
    have e1 : (fun k : Fin 1024 => (xh (ix2 p k) : EReal)) = fun k => h (ix2 r k) := funext eh
    have e2 : (fun k : Fin 1024 => (xx (ix2 p k) : EReal)) = fun k => x (ix2 r k) := funext ex
    have e3 : (fun k : Fin 1024 => (View.ld xw rWlo (ix2 k j) : EReal)) = fun k => W (ix2 (lo k) j) :=
      funext fun k => (congrArg xw (wlo_idx k j)).trans (ew _ _)
    have e4 : (fun k : Fin 1024 => (View.ld xw rWhi (ix2 k j) : EReal)) = fun k => W (ix2 (hi k) j) :=
      funext fun k => (congrArg xw (whi_idx k j)).trans (ew _ _)
    unfold gate
    rw [e1, e2, e3, e4, eb]
  have hc : cellOut xh xx xw xb xc (ix2 p q) = cellState h x cc W b r q := by
    unfold cellOut
    rw [View.canon_unit_zero zeros, lh, lx, lc, lb]
    refine (pay2_at xh xx (View.ld xw rWlo) (View.ld xw rWhi) xb xc p q).trans ?_
    rw [g, g, g, ec]
    rfl
  refine ⟨?_, hc⟩
  unfold hiddenOut
  rw [View.canon_unit_zero zeros, lh, lx, lc, lb]
  refine (pay3_at xh xx (View.ld xw rWlo) (View.ld xw rWhi) xb xc p q).trans ?_
  have hc' : k0_pay2 (F := Ideal) xh xx (View.ld xw rWlo) (View.ld xw rWhi) xb xc (ix2 p q) = cellState h x cc W b r q := by
    have := hc
    unfold cellOut at this
    rw [View.canon_unit_zero zeros, lh, lx, lc, lb] at this
    exact this
  rw [g, hc']
  rfl

/-! ## The arrays the grid finds, over the extended reals -/

variable (m : (ℓ : Loc nD τ sig) → Buf (Elt Ideal) ℓ) (ρ : Dev nD → PrngReg)

/-- The four gate weight matrices side by side: 2048 × 4096. -/
def joinedW (c : Dev nD) : S2048x4096.Idx → Elt Ideal .f32 :=
  concatenate S2048x4096 1 [⟨S2048x1024, m ((c : Thread nD τ).loc main_arg3)⟩, ⟨S2048x1024, m ((c : Thread nD τ).loc main_arg5)⟩,
    ⟨S2048x1024, m ((c : Thread nD τ).loc main_arg7)⟩, ⟨S2048x1024, m ((c : Thread nD τ).loc main_arg9)⟩]
    concatenates_S2048x1024_S2048x1024_S2048x1024_S2048x1024_S2048x4096_d1

/-- The four bias vectors end to end: 4096. -/
def joinedB (c : Dev nD) : S4096.Idx → Elt Ideal .f32 :=
  concatenate S4096 0 [⟨S1024, m ((c : Thread nD τ).loc main_arg4)⟩, ⟨S1024, m ((c : Thread nD τ).loc main_arg6)⟩,
    ⟨S1024, m ((c : Thread nD τ).loc main_arg8)⟩, ⟨S1024, m ((c : Thread nD τ).loc main_arg10)⟩]
    concatenates_S1024_S1024_S1024_S1024_S4096_d0

/-- The weight operand the grid finds is the joined matrix (rounding to the narrow format is the identity here). -/
theorem entry_W (c : Dev nD) (k : Fin 2048) (j : Fin 4096) : entry m c main_v1 (ix2 k j) = joinedW m c (ix2 k j) := by
  have e : entry m c main_v1 = fun i => FloatOps.truncf (F := Ideal) .bf16 bitsLt_bf16_f32 (joinedW m c i) := by
    dsimp only [entry, hostOps0]; after_results; rfl
  rw [e]; rfl

/-- The bias operand the grid finds is the joined bias laid out as one row. -/
theorem entry_b (c : Dev nD) (j : Fin 4096) : entry m c main_v3 (ix2 (0 : Fin 1) j) = joinedB m c (ix1 j) := by
  have e : (entry m c main_v3 : S1x4096.Idx → Elt Ideal .f32)
      = shapeCast S1x4096 (joinedB m c) shapeCasts_S4096_S1x4096 := by
    dsimp only [entry, hostOps0]; after_results; rfl
  rw [e]
  refine (shapeCast_addUnit_apply ![4096] (joinedB m c) shapeCasts_S4096_S1x4096 (ix2 (0 : Fin 1) j)).trans ?_
  refine congrArg _ ?_
  funext a; match a with | ⟨0, _⟩ => rfl

/-! ## The blocks of a point -/

/-- The index maps over the grid: the three batch windows and the two result windows are at block `t` of the rows and
    block 0 of the lanes; the weight matrix and the bias row are always at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem points : cfg0.N = 32 := N_0

/-- Batch row `256·t + p`: row `p` of point `t`'s blocks. -/
def rowOf (t : Fin cfg0.N) (p : Fin 256) : Fin 8192 :=
  ⟨256 * t.val + p.val, by have h := t.isLt; have h32 : cfg0.N = 32 := points; omega⟩

/-- Row `p` of point `t`'s hidden-state block is batch row `256·t + p` of the hidden state as launched; -/
theorem block_h (c : Dev nD) (t : Fin cfg0.N) (p : Fin 256) (k : Fin 1024) :
    blockAt m c 0 t (ix2 p k) = m ((c : Thread nD τ).loc main_arg1) (ix2 (rowOf t p) k) := by
  obtain ⟨e0, e1, -⟩ := index_facts t
  show entry m c main_arg1 (((cfg0.win 0).blk t).view.emb (ix2 p k)) = _
  rw [entry_of_unwritten m c main_arg1 (by decide)]
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega
/-- of its input block, of the input; -/
theorem block_x (c : Dev nD) (t : Fin cfg0.N) (p : Fin 256) (k : Fin 1024) :
    blockAt m c 1 t (ix2 p k) = m ((c : Thread nD τ).loc main_arg0) (ix2 (rowOf t p) k) := by
  obtain ⟨-, -, e0, e1, -⟩ := index_facts t
  show entry m c main_arg0 (((cfg0.win 1).blk t).view.emb (ix2 p k)) = _
  rw [entry_of_unwritten m c main_arg0 (by decide)]
  refine congrArg _ ?_
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega
/-- of its old-cell-state block, of the old cell state. -/
theorem block_c (c : Dev nD) (t : Fin cfg0.N) (p : Fin 256) (q : Fin 1024) :
    blockAt m c 4 t (ix2 p q) = m ((c : Thread nD τ).loc main_arg2) (ix2 (rowOf t p) q) := by
  obtain ⟨-, -, -, -, -, -, -, -, e0, e1, -⟩ := index_facts t
  show entry m c main_arg2 (((cfg0.win 4).blk t).view.emb (ix2 p q)) = _
  rw [entry_of_unwritten m c main_arg2 (by decide)]
  refine congrArg _ ?_
  funext a; apply Fin.ext
  match a with
  | ⟨0, _⟩ => show win0_4.index t (0 : Fin 2) * 256 + 1 * p.val = 256 * t.val + p.val; omega
  | ⟨1, _⟩ => show win0_4.index t (1 : Fin 2) * 1024 + 1 * q.val = q.val; omega
/-- The weight block is the whole joined matrix; -/
theorem block_w (c : Dev nD) (t : Fin cfg0.N) (k : Fin 2048) (j : Fin 4096) :
    blockAt m c 2 t (ix2 k j) = joinedW m c (ix2 k j) := by
  obtain ⟨-, -, -, -, e0, e1, -⟩ := index_facts t
  refine Eq.trans ?_ (entry_W m c k j)
  show entry m c main_v1 (((cfg0.win 2).blk t).view.emb (ix2 k j)) = _
  refine congrArg _ ?_
  funext a; apply Fin.ext
  match a with
  | ⟨0, _⟩ => show win0_2.index t (0 : Fin 2) * 2048 + 1 * k.val = k.val; omega
  | ⟨1, _⟩ => show win0_2.index t (1 : Fin 2) * 4096 + 1 * j.val = j.val; omega
/-- the bias block the joined bias. -/
theorem block_b (c : Dev nD) (t : Fin cfg0.N) (j : Fin 4096) :
    blockAt m c 3 t (ix2 (0 : Fin 1) j) = joinedB m c (ix1 j) := by
  obtain ⟨-, -, -, -, -, -, e0, e1, -⟩ := index_facts t
  refine Eq.trans ?_ (entry_b m c j)
  show entry m c main_v3 (((cfg0.win 3).blk t).view.emb (ix2 (0 : Fin 1) j)) = _
  refine congrArg _ ?_
  funext a; apply Fin.ext
  match a with
  | ⟨0, _⟩ => show win0_3.index t (0 : Fin 2) * 1 + 1 * 0 = 0; omega
  | ⟨1, _⟩ => show win0_3.index t (1 : Fin 2) * 4096 + 1 * j.val = j.val; omega

/-! ## The result arrays -/

/-- The new hidden state as one array: the specification at every batch row and lane. -/
def hiddenArr (c : Dev nD) : S8192x1024.Idx → Elt Ideal .f32 := fun i =>
  hiddenState (m ((c : Thread nD τ).loc main_arg1)) (m ((c : Thread nD τ).loc main_arg0)) (m ((c : Thread nD τ).loc main_arg2))
    (joinedW m c) (joinedB m c) ⟨(i 0).val, (i 0).isLt⟩ ⟨(i 1).val, (i 1).isLt⟩

/-- The new cell state as one array. -/
def cellArr (c : Dev nD) : S8192x1024.Idx → Elt Ideal .f32 := fun i =>
  cellState (m ((c : Thread nD τ).loc main_arg1)) (m ((c : Thread nD τ).loc main_arg0)) (m ((c : Thread nD τ).loc main_arg2))
    (joinedW m c) (joinedB m c) ⟨(i 0).val, (i 0).isLt⟩ ⟨(i 1).val, (i 1).isLt⟩

/-- What the body stores at `(p, q)` at point `t` is the specification at batch row `256·t + p`, lane `q`. -/
theorem stored_at (c : Dev nD) (t : Fin cfg0.N) (p : Fin 256) (q : Fin 1024) :
    hiddenOut (blockAt m c 0 t) (blockAt m c 1 t) (blockAt m c 2 t) (blockAt m c 3 t) (blockAt m c 4 t) (ix2 p q)
        = hiddenState (m ((c : Thread nD τ).loc main_arg1)) (m ((c : Thread nD τ).loc main_arg0)) (m ((c : Thread nD τ).loc main_arg2))
            (joinedW m c) (joinedB m c) (rowOf t p) q
      ∧ cellOut (blockAt m c 0 t) (blockAt m c 1 t) (blockAt m c 2 t) (blockAt m c 3 t) (blockAt m c 4 t) (ix2 p q)
        = cellState (m ((c : Thread nD τ).loc main_arg1)) (m ((c : Thread nD τ).loc main_arg0)) (m ((c : Thread nD τ).loc main_arg2))
            (joinedW m c) (joinedB m c) (rowOf t p) q :=
  point_spec (blockAt m c 0 t) (blockAt m c 1 t) (blockAt m c 2 t) (blockAt m c 3 t) (blockAt m c 4 t)
    (m ((c : Thread nD τ).loc main_arg1)) (m ((c : Thread nD τ).loc main_arg0)) (m ((c : Thread nD τ).loc main_arg2))
    (joinedW m c) (joinedB m c) (rowOf t p) p q
    (block_h m c t p) (block_x m c t p) (block_c m c t p q) (block_w m c t) (block_b m c t)

/-- Element `(p, q)` of point `t`'s block of a result array sits at batch row `256·t + p`, lane `q`: for the hidden state, -/
theorem hidden_emb (t : Fin cfg0.N) (p : Fin 256) (q : Fin 1024) :
    ((cfg0.win 5).blk t).view.emb (ix2 p q) = ix2 (rowOf t p) q := by
  obtain ⟨-, -, -, -, -, -, -, -, -, -, e0, e1, -⟩ := index_facts t
  funext a; apply Fin.ext
  match a with
  | ⟨0, _⟩ => show win0_5.index t (0 : Fin 2) * 256 + 1 * p.val = 256 * t.val + p.val; omega
  | ⟨1, _⟩ => show win0_5.index t (1 : Fin 2) * 1024 + 1 * q.val = q.val; omega
/-- and for the cell state. -/
theorem cell_emb (t : Fin cfg0.N) (p : Fin 256) (q : Fin 1024) :
    ((cfg0.win 6).blk t).view.emb (ix2 p q) = ix2 (rowOf t p) q := by
  obtain ⟨-, -, -, -, -, -, -, -, -, -, -, -, e0, e1⟩ := index_facts t
  funext a; apply Fin.ext
  match a with
  | ⟨0, _⟩ => show win0_6.index t (0 : Fin 2) * 256 + 1 * p.val = 256 * t.val + p.val; omega
  | ⟨1, _⟩ => show win0_6.index t (1 : Fin 2) * 1024 + 1 * q.val = q.val; omega

/-- What point `t` writes back into the new hidden state is block `t` of the specification's array; -/
theorem flushed_hidden (c : Dev nD) (t : Fin cfg0.N) :
    (dats m 0 c).flushed 5 t = ((cfg0.win 5).blk t).view.read (Elt Ideal) (hiddenArr m c) := by
  show (cfg0.win 5).cut (grid0.coords t) ((dats m 0 c).after 5 t) = _
  rw [after_hidden]
  funext y
  obtain ⟨p, q, rfl⟩ : ∃ (p : Fin 256) (q : Fin 1024), y = ix2 p q := ⟨y 0, y 1, eq_ix2 y⟩
  refine Eq.trans (b := hiddenState (m ((c : Thread nD τ).loc main_arg1)) (m ((c : Thread nD τ).loc main_arg0))
    (m ((c : Thread nD τ).loc main_arg2)) (joinedW m c) (joinedB m c) (rowOf t p) q) (stored_at m c t p q).1 ?_
  show _ = hiddenArr m c (((cfg0.win 5).blk t).view.emb (ix2 p q))
  rw [hidden_emb]
  rfl
/-- into the new cell state, block `t` of its. -/
theorem flushed_cell (c : Dev nD) (t : Fin cfg0.N) :
    (dats m 0 c).flushed 6 t = ((cfg0.win 6).blk t).view.read (Elt Ideal) (cellArr m c) := by
  show (cfg0.win 6).cut (grid0.coords t) ((dats m 0 c).after 6 t) = _
  rw [after_cell]
  funext y
  obtain ⟨p, q, rfl⟩ : ∃ (p : Fin 256) (q : Fin 1024), y = ix2 p q := ⟨y 0, y 1, eq_ix2 y⟩
  refine Eq.trans (b := cellState (m ((c : Thread nD τ).loc main_arg1)) (m ((c : Thread nD τ).loc main_arg0))
    (m ((c : Thread nD τ).loc main_arg2)) (joinedW m c) (joinedB m c) (rowOf t p) q) (stored_at m c t p q).2 ?_
  show _ = cellArr m c (((cfg0.win 6).blk t).view.emb (ix2 p q))
  rw [cell_emb]
  rfl

/-- An index of a result array is in point `t`'s block iff each coordinate is in the block's range on its axis. -/
theorem mem_hidden_blk (t : Fin cfg0.N) (i : S8192x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v4_0).slice (win0_5.rect t)).set ↔ _
  rw [View.set_slice_whole, Rect.mem_set_unit]
  exact Iff.rfl
theorem mem_cell_blk (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v4_1).slice (win0_6.rect t)).set ↔ _
  rw [View.set_slice_whole, Rect.mem_set_unit]
  exact Iff.rfl

/-- Batch row `r` is in the block of point `r / 256`: the 32 blocks of 256 rows tile the 8192 rows. -/
theorem hidden_covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 256 < cfg0.N := by rw [points]; omega
  obtain ⟨-, -, -, -, -, -, -, -, -, -, e0, e1, -⟩ := index_facts ⟨(i 0).val / 256, hN⟩
  refine ⟨⟨(i 0).val / 256, hN⟩, flush0_5 _, ?_⟩
  rw [mem_hidden_blk]
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, hN⟩ (1 : Fin 2) * 1024 ≤ (i 1).val
      ∧ (i 1).val < win0_5.index ⟨(i 0).val / 256, hN⟩ (1 : Fin 2) * 1024 + 1024
    rw [e1]; omega
theorem cell_covered (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 256 < cfg0.N := by rw [points]; omega
  obtain ⟨-, -, -, -, -, -, -, -, -, -, -, -, e0, e1⟩ := index_facts ⟨(i 0).val / 256, hN⟩
  refine ⟨⟨(i 0).val / 256, hN⟩, flush0_6 _, ?_⟩
  rw [mem_cell_blk]
  intro a
  match a with
  | ⟨0, _⟩ =>
    show win0_6.index ⟨(i 0).val / 256, hN⟩ (0 : Fin 2) * 256 ≤ (i 0).val
      ∧ (i 0).val < win0_6.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hN⟩ (1 : Fin 2) * 1024 ≤ (i 1).val
      ∧ (i 1).val < win0_6.index ⟨(i 0).val / 256, hN⟩ (1 : Fin 2) * 1024 + 1024
    rw [e1]; omega

/-- So after the grid each result array is the specification's array. -/
theorem final_hidden (c : Dev nD) : (dats m 0 c).arrAt 5 cfg0.N = hiddenArr m c :=
  (dats m 0 c).arrAt_eq_of_cover 5 (hiddenArr m c) (fun t _ => flushed_hidden m c t) hidden_covered
theorem final_cell (c : Dev nD) : (dats m 0 c).arrAt 6 cfg0.N = cellArr m c :=
  (dats m 0 c).arrAt_eq_of_cover 6 (cellArr m c) (fun t _ => flushed_cell m c t) cell_covered

/-! ## The run, read -/

/-- Every weakly fair execution of the program terminates without a fault with the new hidden state and the new cell
    state at the specification's arrays and the eleven argument arrays as launched. -/
theorem run : θ_run defs (onTc (τ := τ) (main (F := Ideal))) ⟨m, fun _ => 0, ρ⟩ fun r => ∀ c : Dev nD,
      r.2.mem ((c.tc : Thread nD τ).loc main_v4_0) = hiddenArr m c
      ∧ r.2.mem ((c.tc : Thread nD τ).loc main_v4_0) = hiddenArr m c
      ∧ r.2.mem ((c.tc : Thread nD τ).loc main_v4_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h c).1 5).trans (final_hidden m c), ((h c).1 5).trans (final_hidden m c), ((h c).1 6).trans (final_cell m c),
      Region.args_kept m r h c⟩) (Region.run m ρ)

end Cert.KernelIdeal.CellValue

end
-- ==== Proof.RefValue.lean ====
/-
  The reference's result, read at one element, is the specification.

  The reference joins the hidden state and the input along the columns (hidden state first), multiplies the joined
  row by the joined weight matrix, adds the joined bias, cuts the 4096 columns into four blocks of 1024 (forget, input,
  candidate, output), and combines them: `c' = σ(f) · c + σ(i) · tanh(g)`, `h' = σ(o) · tanh(c')`, with `σ` written out
  as `1 / (1 + e^(-x))`.

  Three facts carry the proof. (1) A sum of 2048 terms is the sum of its first 1024 terms plus the sum of its last 1024
  (regrouping a finite sum: true in any additive commutative monoid, so for the extended reals with no finiteness
  assumption). (2) The joined row at column `k < 1024` is the hidden state at `k`, and at column `1024 + k` the input at
  `k`. With (1) and (2) the inner product of the joined row with a weight column is the hidden state against the
  column's first 1024 rows plus the input against its last 1024: the specification's `pre`. (3) The quotient
  `1 / (1 + e^(-x))`, with `1` the float pattern of one, is the logistic function by definition. The joined weight
  matrix and the joined bias are never read: they stay the opaque arrays the specification is stated over.
-/
import proofs.«147229_j39599598469282_2_alg».proof.Proof.LstmSpec
import proofs.«147229_j39599598469282_2_alg».proof.Proof.Gen.ReferenceIdeal.Read
import Idealize.ShloMosaic.Lib.ValueIdx
import Idealize.ShloMosaic.Lib.Pipeline.Value
import Idealize.ShloMosaic.Lib.IdealHost
import Idealize.ShloMosaic.PureOps.Ideal.Laws

noncomputable section
open scoped BigOperators
open Idealize.ShloMosaic Idealize.ShloMosaic.ValueIdx

namespace Cert.ReferenceIdeal.RefValue
open Cert.ReferenceIdeal Cert.ReferenceIdeal.Read Cert.LstmSpec

/-! ## Regrouping the sum -/

/-- A sum over 2048 terms is the sum over the first 1024 (`lo k = k`) plus the sum over the last 1024
    (`hi k = 1024 + k`). -/
theorem sum_split (f : Fin 2048 → EReal) :
    ∑ k : Fin 2048, f k = (∑ k : Fin 1024, f (lo k)) + ∑ k : Fin 1024, f (hi k) :=
  Fin.sum_univ_add (a := 1024) (b := 1024) f

/-! ## The joined row -/

/-- The joined row at a column of its first half is the hidden state at that column. -/
theorem row_lo (x0 x1 : (⟨S8192x1024, .f32⟩ : BufTy).Contents (Elt Ideal)) (r : Fin 8192) (k : Fin 1024) :
    val_main_v0 (F := Ideal) x0 x1 (ix2 r (lo k)) = x1 (ix2 r k) := by
  unfold val_main_v0
  exact concatenate_pair_apply_left (t := S8192x2048) (s₁ := S8192x1024) (s₂ := S8192x1024) (1 : Fin 2) x1 x0
    Gen.concatenates_S8192x1024_S8192x1024_S8192x2048_d1 (ix2 r (lo k)) rfl (ix2 r k) (fun b => by
      match b with
      | ⟨0, _⟩ => rfl
      | ⟨1, _⟩ => rfl)

/-- The joined row at column `1024 + k` is the input at column `k`. -/
theorem row_hi (x0 x1 : (⟨S8192x1024, .f32⟩ : BufTy).Contents (Elt Ideal)) (r : Fin 8192) (k : Fin 1024) :
    val_main_v0 (F := Ideal) x0 x1 (ix2 r (hi k)) = x0 (ix2 r k) := by
  unfold val_main_v0
  exact concatenate_pair_apply_right (t := S8192x2048) (s₁ := S8192x1024) (s₂ := S8192x1024) (1 : Fin 2) x1 x0
    Gen.concatenates_S8192x1024_S8192x1024_S8192x2048_d1 (ix2 r (hi k)) rfl rfl (ix2 r k)
    (fun b hb => by
      match b with
      | ⟨0, _⟩ => rfl
      | ⟨1, _⟩ => exact absurd rfl hb)
    (by show k.val + 1024 = 1024 + k.val; omega)

/-! ## One gate column's pre-activation -/

/-- The product with the joined weight matrix plus the broadcast bias, at row `r` and column `j`, is the
    specification's pre-activation of gate column `j`: the contraction's left index at `k` is `(r, k)`, its right
    index `(k, j)`, the twice-broadcast bias reads entry `j`; then the sum is regrouped and the joined row read. -/
theorem gate_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal))
    (r : Fin 8192) (j : Fin 4096) :
    val_main_v6 (F := Ideal) x0 x1 x3 x4 x5 x6 x7 x8 x9 x10 (ix2 r j)
      = gate x1 x0 (val_main_v1 (F := Ideal) x3 x5 x7 x9) (val_main_v2 (F := Ideal) x4 x6 x8 x10) r j := by
  rw [val_main_v6_apply, val_main_v3_apply, val_main_v5_apply, val_main_v4_apply]
  generalize val_main_v1 (F := Ideal) x3 x5 x7 x9 = W
  generalize val_main_v2 (F := Ideal) x4 x6 x8 x10 = b
  have el : ∀ k : Fin 2048, lidx_main_v3 (ix2 r j) k = ix2 r k := fun k => funext fun a => by
    match a with
    | ⟨0, _⟩ => rfl
    | ⟨1, _⟩ => rfl
  have er : ∀ k : Fin 2048, ridx_main_v3 (ix2 r j) k = ix2 k j := fun k => funext fun a => by
    match a with
    | ⟨0, _⟩ => rfl
    | ⟨1, _⟩ => rfl
  have eb : idx_main_v4 (idx_main_v5 (ix2 r j)) = ix1 j := funext fun a => by
    match a with
    | ⟨0, _⟩ => rfl
  rw [eb, sum_split]
  simp only [el, er, row_lo, row_hi]
  rfl

/-! ## The logistic function written out, and the four column blocks -/

/-- `1 / (1 + e^(-y))`, with `1` the float pattern of one, is the logistic function of `y`: the pattern is the
    extended real one, and the logistic function is defined as this quotient. -/
theorem sigmoid_eq (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = Ideal.logistic y := by
  rw [Ideal.ofBits_def, Ideal.ofBits_one_f32]
  rfl

/-- Lane `q` of the block of columns from 0 is column `q`: the forget gate's. -/
theorem idx7 (r : Fin 8192) (q : Fin 1024) : idx_main_v7 (ix2 r q) = ix2 r (colF q) := funext fun a => by
  match a with
  | ⟨0, _⟩ => rfl
  | ⟨1, _⟩ => rfl
/-- Lane `q` of the block of columns from 1024 is column `1024 + q`: the input gate's. -/
theorem idx8 (r : Fin 8192) (q : Fin 1024) : idx_main_v8 (ix2 r q) = ix2 r (colI q) := funext fun a => by
  match a with
  | ⟨0, _⟩ => rfl
  | ⟨1, _⟩ => rfl
/-- Lane `q` of the block of columns from 2048 is column `2048 + q`: the candidate's. -/
theorem idx9 (r : Fin 8192) (q : Fin 1024) : idx_main_v9 (ix2 r q) = ix2 r (colG q) := funext fun a => by
  match a with
  | ⟨0, _⟩ => rfl
  | ⟨1, _⟩ => rfl
/-- Lane `q` of the block of columns from 3072 is column `3072 + q`: the output gate's. -/
theorem idx10 (r : Fin 8192) (q : Fin 1024) : idx_main_v10 (ix2 r q) = ix2 r (colO q) := funext fun a => by
  match a with
  | ⟨0, _⟩ => rfl
  | ⟨1, _⟩ => rfl

/-! ## The two results -/

/-- The reference's new cell state at row `r`, lane `q` is the specification's: each operation is read at the
    element, the three column blocks at their gate columns, each pre-activation by `gate_eq`, each written-out
    quotient by `sigmoid_eq`; what is left is the definition of `cellState`. -/
theorem cell_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal))
    (r : Fin 8192) (q : Fin 1024) :
    val_main_v32 (F := Ideal) x0 x1 x2 x3 x4 x5 x6 x7 x8 x9 x10 (ix2 r q)
      = cellState x1 x0 x2 (val_main_v1 (F := Ideal) x3 x5 x7 x9) (val_main_v2 (F := Ideal) x4 x6 x8 x10) r q := by
  rw [val_main_v32_apply, val_main_v30_apply, val_main_v31_apply, val_main_v16_apply, val_main_v22_apply, val_main_v23_apply,
    val_main_v15_apply, val_main_v14_apply, val_main_v13_apply, val_main_v12_apply, val_main_v11_apply, val_main_v7_apply,
    val_main_v21_apply, val_main_v20_apply, val_main_v19_apply, val_main_v18_apply, val_main_v17_apply, val_main_v8_apply,
    val_main_v9_apply, val_main_cst_apply, val_main_cst_0_apply, val_main_cst_1_apply, val_main_cst_2_apply,
    idx7, idx8, idx9, gate_eq, gate_eq, gate_eq, sigmoid_eq, sigmoid_eq]
  rfl

/-- The reference's new hidden state at row `r`, lane `q` is the specification's: the product of the output
    gate's logistic with the hyperbolic tangent of the new cell state, the latter by `cell_eq`. -/
theorem hidden_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal))
    (r : Fin 8192) (q : Fin 1024) :
    val_main_v34 (F := Ideal) x0 x1 x2 x3 x4 x5 x6 x7 x8 x9 x10 (ix2 r q)
      = hiddenState x1 x0 x2 (val_main_v1 (F := Ideal) x3 x5 x7 x9) (val_main_v2 (F := Ideal) x4 x6 x8 x10) r q := by
  rw [val_main_v34_apply, val_main_v33_apply, cell_eq, val_main_v29_apply, val_main_v28_apply, val_main_v27_apply,
    val_main_v26_apply, val_main_v25_apply, val_main_v24_apply, val_main_v10_apply, val_main_cst_3_apply,
    val_main_cst_4_apply, idx10, gate_eq, sigmoid_eq]
  rfl

end Cert.ReferenceIdeal.RefValue
end
-- ==== Proof.Bridge.lean ====
/-
  The two programs compute the same arrays. The reference joins the hidden state and the input along the lanes, joins
  the four weight matrices side by side and the four biases end to end, takes ONE matrix product of 2048 terms per
  entry, adds the bias and applies the gates; read at batch row `r` and lane `q` that is the specification's new cell
  state and new hidden state, where the 2048-term sum appears regrouped as the hidden state's 1024 terms plus the
  input's 1024 terms. The kernel's result arrays are the specification's arrays of the same joined weights and biases.
  So, as whole arrays, the reference's results are the kernel's.
-/
import proofs.«147229_j39599598469282_2_alg».proof.Proof.RefValue
import proofs.«147229_j39599598469282_2_alg».proof.Proof.KernelValue

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (c : Dev Cert.KernelIdeal.nD)

/-- The reference's new hidden state, of the kernel's argument arrays, is the kernel's: entry by entry both are the
    specification at that batch row and lane, of the same joined weight matrix and joined bias. -/
theorem hidden_same :
    Cert.ReferenceIdeal.Read.val_main_v34 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      = Cert.KernelIdeal.CellValue.hiddenArr m c := by
  funext i
  obtain ⟨r, q, rfl⟩ : ∃ (r : Fin 8192) (q : Fin 1024), i = ix2 r q := ⟨i 0, i 1, eq_ix2 i⟩
  exact Cert.ReferenceIdeal.RefValue.hidden_eq _ _ _ _ _ _ _ _ _ _ _ r q

/-- The same for the new cell state. -/
theorem cell_same :
    Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      = Cert.KernelIdeal.CellValue.cellArr m c := by
  funext i
  obtain ⟨r, q, rfl⟩ : ∃ (r : Fin 8192) (q : Fin 1024), i = ix2 r q := ⟨i 0, i 1, eq_ix2 i⟩
  exact Cert.ReferenceIdeal.RefValue.cell_eq _ _ _ _ _ _ _ _ _ _ _ r q

end Cert.Bridge

end
-- ==== Proof.lean ====
/-
  One step of an LSTM cell on 8192 batch rows with 1024 hidden units and 1024 input features: the kernel against its
  array-language reference, equal over the extended reals.

  Both compute, for every batch row `r` and lane `q`, four gate pre-activations — the inner product of the joined vector
  (hidden state, then input: 2048 entries) with a column of the joined weight matrix (the forget, input, candidate and
  output matrices side by side: columns `q`, `1024 + q`, `2048 + q`, `3072 + q`), plus that column's bias — and from
  them the new cell state `σ(f)·c + σ(i)·tanh(g)` and the new hidden state `σ(o)·tanh(c')`.

  They differ in three ways, none of which matters over the extended reals. The kernel never joins the hidden state and
  the input: it multiplies each by its own half of the weight rows and adds the two products, which regroups a sum of
  2048 terms as two sums of 1024 — addition of extended reals is commutative and associative, so no finiteness is
  needed. The kernel rounds its matrix operands to a narrow float format first, which over the extended reals is the
  identity. And the kernel applies the logistic function as one operation where the reference spells it
  `1 / (1 + e^(-x))`: these are one function, infinities included. The kernel works through the batch in 32 blocks of
  256 rows whose results tile the result arrays.

  The three frame conjuncts: each program runs to the end, faults nowhere and leaves its eleven argument arrays as
  launched (the kernel's program at the word level and over the extended reals by the same argument, the reference's
  by its run). The idealization rewrote nothing, so there is nothing to preserve. The value conjunct puts the two runs
  side by side at the specification's arrays.
-/
import proofs.«147229_j39599598469282_2_alg».proof.Defs
import proofs.«147229_j39599598469282_2_alg».proof.Proof.Gen.Kernel
import proofs.«147229_j39599598469282_2_alg».proof.Proof.Gen.KernelIdeal
import proofs.«147229_j39599598469282_2_alg».proof.Proof.Gen.ReferenceIdeal
import proofs.«147229_j39599598469282_2_alg».proof.Proof.Gen.Pre_finite_inputs
import proofs.«147229_j39599598469282_2_alg».proof.Proof.Gen.ReferenceIdeal.Run
import proofs.«147229_j39599598469282_2_alg».proof.Proof.Gen.ReferenceIdeal.Read
import proofs.«147229_j39599598469282_2_alg».proof.Proof.KernelRegion
import proofs.«147229_j39599598469282_2_alg».proof.Proof.KernelIdealRegion
import proofs.«147229_j39599598469282_2_alg».proof.Proof.KernelValue
import proofs.«147229_j39599598469282_2_alg».proof.Proof.RefValue
import proofs.«147229_j39599598469282_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program, read at the word level, runs and keeps its arguments. -/
theorem frame_kernel : Cert.frame_Kernel := fun m ρ _ => Cert.Kernel.Region.frame m ρ

/-- The same program read over the extended reals. -/
theorem frame_kernel_ideal : Cert.frame_KernelIdeal := fun m ρ _ => Cert.KernelIdeal.Region.frame m ρ

/-- The reference runs and keeps its arguments: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs run, and end with the new hidden state (returned twice) and
    the new cell state at the specification's arrays of the kernel's arguments. -/
theorem algebraic : Cert.algebraic_KernelIdeal_ReferenceIdeal := by
  intro m ρ m' ρ' _ hagree
  refine ⟨fun c => Cert.KernelIdeal.CellValue.hiddenArr m c, fun c => Cert.KernelIdeal.CellValue.hiddenArr m c,
    fun c => Cert.KernelIdeal.CellValue.cellArr m c, Cert.KernelIdeal.CellValue.run m ρ, ?_⟩
  refine (θ_run Cert.ReferenceIdeal.defs _ _).mono (fun r h c => ?_) (Cert.ReferenceIdeal.Value.run (F := Ideal) m' ρ')
  obtain ⟨h0, h1, h2, hkept⟩ := h c
  obtain ⟨a0, a1, a2, a3, a4, a5, a6, a7, a8, a9, a10⟩ := hagree c
  have eh : Cert.ReferenceIdeal.Value.res_main_v34 m' c = Cert.KernelIdeal.CellValue.hiddenArr m c := by
    rw [Cert.ReferenceIdeal.Read.val_main_v34_eq m' c, a0, a1, a2, a3, a4, a5, a6, a7, a8, a9, a10]
    exact Cert.Bridge.hidden_same m c
  refine ⟨h0.trans eh, h1.trans eh, ?_, hkept⟩
  refine (h2.trans (Cert.ReferenceIdeal.Read.val_main_v32_eq _ _ _ _ _ _ _ _ _ _ _)).trans ?_
  rw [a0, a1, a2, a3, a4, a5, a6, a7, a8, a9, a10]
  exact Cert.Bridge.cell_same m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
